-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S3x8192 : Shape := ⟨2, ![3, 8192]⟩
abbrev S8192 : Shape := ⟨1, ![8192]⟩
abbrev S1024x3 : Shape := ⟨2, ![1024, 3]⟩
abbrev S3x1024 : Shape := ⟨2, ![3, 1024]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S3x8192, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x1024, .f32⟩
  | .local _ .vmem, ⟨3, _⟩ => ⟨S3x1024, .f32⟩
  | .local _ .vmem, ⟨4, _⟩ => ⟨S1024, .f32⟩
  | .local _ .vmem, ⟨5, _⟩ => ⟨S1024, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8192x3_S3x8192_1_0 : S8192x3.Transposes [1, 0] S3x8192
  inb_S1024_S1024_0 : ∀ a, (![0] : Fin 1 → Nat) a + S1024.size a ≤ S1024.size a
  h_S1024 : 0 < S1024.numel
  inb_S1024x3_S1024x3_0_0 : ∀ a, (![0, 0] : Fin 2 → Nat) a + S1024x3.size a ≤ S1024x3.size a
  h_S1024x3 : 0 < S1024x3.numel
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  reduces_S1024x1024_S1024 : S1024x1024.Reduces [0] S1024
  shapeCasts_S1024_S1024 : S1024.ShapeCasts S1024
  bcast_S_S8192 : S_.BroadcastsInDim S8192 (![] : Fin 0 → Fin S8192.rank)
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x8192.size a
  hwx0_1 : ∀ i : grid0.Coords, EltTy.bits .f32 = 32 ∨ (Rect.block (s := S3x8192) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)

variable [Facts₀]

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192 : Shape := ⟨1, ![8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x1x3, .f32⟩
  | .hbm, ⟨3, _⟩ => ⟨S1x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  reducesTo_S8192x8192_S8192_d0 : S8192x8192.ReducesTo [0] S8192
  reducesTo_S8192_S_d0 : S8192.ReducesTo [0] S_

variable [Facts₀]

class Facts : Prop extends Facts₀ where

variable [Facts]
-- ==== Proof.Cases.lean ====
/-
  What one grid point leaves in the running-minimum buffer, in each of the body's two cases.

  At the first row tile of a column's run the body first fills the buffer with +∞, reads that back, and stores the
  minimum of it and the tile's minimum; at every later row tile it reads what the point before left and stores the
  minimum of that and the tile's minimum.  In both cases what is left is ONE covering store's value: the body's
  arithmetic applied to the two input blocks and the running value — +∞ in the first case.
-/
import proofs.«118219_j16741782520028_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem
open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- A later row tile: the buffer holding `xo` ends at the body's arithmetic of the two blocks and `xo`. -/
theorem out_B (c : Dev nD) (i : grid0.Coords) (a2 : Memref sig .tc .vmem S1024x3 .f32) (h2 : a2.IsWhole)
    (a3 : Memref sig .tc .vmem S3x1024 .f32) (h3 : a3.IsWhole) (a4 : Memref sig .tc .vmem S1024 .f32) (h4 : a4.IsWhole)
    (hc : ¬cond0_0 i) (x0 : Vec F S1024x3 .f32) (x1 : Vec F S3x1024 .f32) (xo : Vec F S1024 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz1]
  simp only [View.readAt_eq_ld, h2.read_unread, h3.read_unread, h4.read_unread, View.ld_unit_zero (S := S1024x3) hz2,
    View.ld_unit_zero (S := S3x1024) hz2, View.ld_unit_zero (S := S1024) hz1]

/-- The first row tile: the buffer ends at the body's arithmetic of the two blocks and the +∞ fill it read back. -/
theorem out_A (c : Dev nD) (i : grid0.Coords) (a2 : Memref sig .tc .vmem S1024x3 .f32) (h2 : a2.IsWhole)
    (a3 : Memref sig .tc .vmem S3x1024 .f32) (h3 : a3.IsWhole) (a4 : Memref sig .tc .vmem S1024 .f32) (h4 : a4.IsWhole)
    (hc : cond0_0 i) (x0 : Vec F S1024x3 .f32) (x1 : Vec F S3x1024 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1024) hz1, View.readCov_unit_zero (S := S1024) _ hz1]
  simp only [View.readAt_eq_ld, h2.read_unread, h3.read_unread, View.ld_unit_zero (S := S1024x3) hz2,
    View.ld_unit_zero (S := S3x1024) hz2]

/-! ## The running buffer, point by point -/

variable (m : (ℓ : Loc nD τ sig) → Buf (Elt F) ℓ)

/-- At the first row tile of a column's run (t ≡ 0 mod 8) the buffer ends at the body's arithmetic of the point's two
    blocks and the +∞ fill. -/
theorem outsAt_first (c : Dev nD) (t : Fin cfg0.N) (h0 : t.val % 8 = 0) :
    outsAt0 m c t.val t.isLt = k0_pay2 (iblk m c 0 t) (iblk m c 1 t) (k0_pay1 (F := F)) :=
  (outsAt0_A m c t h0).trans
    (out_A c (grid0.coords t) (ms0_0 t) (hs0_0 t) (ms0_1 t) (hs0_1 t) (ms0_2 t) (hs0_2 t) ((hcond0_0 t).mpr h0)
      (iblk m c 0 t) (iblk m c 1 t))

/-- At every later row tile it ends at the body's arithmetic of the point's two blocks and what the point before left. -/
theorem outsAt_later (c : Dev nD) (t : Fin cfg0.N) (h0 : ¬t.val % 8 = 0) :
    outsAt0 m c t.val t.isLt
      = k0_pay2 (iblk m c 0 t) (iblk m c 1 t) (outsAt0 m c (t.val - 1) (Nat.lt_of_le_of_lt (Nat.sub_le _ _) t.isLt)) :=
  (outsAt0_B m c t h0).trans
    (out_B c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)))

end Cert.KernelIdeal.Cases

end
-- ==== Proof.Blocks.lean ====
/-
  What the windows' blocks are, in the argument arrays.

  The grid has 8 × 8 points; point t has column-tile coordinate t / 8 (slow) and row-tile coordinate t % 8 (fast).
  * The first window cuts the first input [8192, 3] into row tiles of 1024: at point t its block's row r is row
    1024·(t % 8) + r of the input.
  * The second window cuts the TRANSPOSE [3, 8192] of the second input, which the host forms before the region, into
    column tiles of 1024: at point t its block's column l is column 1024·(t / 8) + l of the transpose, that is row
    1024·(t / 8) + l of the second input.
  * The result window cuts the result [8192] into tiles of 1024: at point t its block is tile t / 8.
-/
import proofs.«118219_j16741782520028_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## The index maps over the grid -/

theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)

theorem idx1 : ∀ t : Fin cfg0.N, win0_1.index t (0 : Fin 2) = 0 ∧ win0_1.index t (1 : Fin 2) = t.val / 8 :=
  (by decide +kernel : ∀ t : Fin grid0.N, win0_1.index t (0 : Fin 2) = 0 ∧ win0_1.index t (1 : Fin 2) = t.val / 8)

theorem idx2 : ∀ t : Fin cfg0.N, win0_2.index t (0 : Fin 1) = t.val / 8 :=
  (by decide +kernel : ∀ t : Fin grid0.N, win0_2.index t (0 : Fin 1) = t.val / 8)

/-! ## The arrays as the region finds them -/

/-- The second window's array is the transpose of the second input. -/
theorem V_transposed (c : Dev nD) :
    (V m c main_v0 : S3x8192.Idx → F .f32)
      = transpose S3x8192 [1, 0] (m ((c : Thread nD τ).loc main_arg1)) transposes_S8192x3_S3x8192_1_0 := by
  show StableHlo.after hostOps0 (fun b => m (c, b)) (Proc.devRef .tc main_v0) = _
  after_results

/-! ## The blocks -/

/-- Row r of the first window's block at point t is row 1024·(t % 8) + r of the first input. -/
theorem iblk0_apply (c : Dev nD) (t : Fin cfg0.N) (r : Fin 1024) (k : Fin 3) (p : Fin 8192)
    (hp : p.val = 1024 * (t.val % 8) + r.val) :
    (iblk m c 0 t : Vec F S1024x3 .f32) (ix2 r k) = m ((c : Thread nD τ).loc main_arg0) (ix2 p k) := by
  unfold iblk
  rw [View.read_apply]
  show V m c main_arg0 _ = _
  refine (congrFun (V_main_arg0 m c) _).trans (congrArg (m ((c : Thread nD τ).loc main_arg0)) (funext fun a => Fin.ext ?_))
  match a with
  | ⟨0, _⟩ => show win0_0.index t (0 : Fin 2) * 1024 + 1 * r.val = p.val; rw [(idx0 t).1, hp]; omega
  | ⟨1, _⟩ => show win0_0.index t (1 : Fin 2) * 3 + 1 * k.val = k.val; rw [(idx0 t).2]; omega

/-- Column l of the second window's block at point t is row 1024·(t / 8) + l of the second input. -/
theorem iblk1_apply (c : Dev nD) (t : Fin cfg0.N) (k : Fin 3) (l : Fin 1024) (q : Fin 8192)
    (hq : q.val = 1024 * (t.val / 8) + l.val) :
    (iblk m c 1 t : Vec F S3x1024 .f32) (ix2 k l) = m ((c : Thread nD τ).loc main_arg1) (ix2 q k) := by
  unfold iblk
  rw [View.read_apply]
  show V m c main_v0 _ = _
  refine (congrFun (V_transposed m c) _).trans ?_
  refine (transpose_apply [1, 0] (m ((c : Thread nD τ).loc main_arg1)) transposes_S8192x3_S3x8192_1_0 _ (ix2 q k) fun b => ?_)
  match b with
  | ⟨0, _⟩ => show k.val = win0_1.index t (0 : Fin 2) * 3 + 1 * k.val; rw [(idx1 t).1]; omega
  | ⟨1, _⟩ => show q.val = win0_1.index t (1 : Fin 2) * 1024 + 1 * l.val; rw [(idx1 t).2, hq]; omega

end Cert.KernelIdeal.Blocks

end
-- ==== Proof.Distances.lean ====
/-
  Extended-real facts behind the nearest-point distance.

  For points a_p, b_q in three coordinates write  D(p, q) = Σ_k (a_p,k - b_q,k)²  for the squared distance.
  The quantity compared is  2 · mean_q sqrt (min_p D(p, q)).  One side takes the minimum of the squared
  distances first and the square root (after clamping below at 0) last; the other takes the square root of
  every D(p, q) and then the minimum, and adds the mean to itself.  The two agree on the extended reals because
    * a square d·d is never negative, so D(p, q) ≥ 0 and clamping a minimum of such numbers at 0 changes nothing;
    * the square root used here (junk ⊥ below zero, √ on [0, ∞), ⊤ at ⊤) is monotone on ALL extended reals,
      so it commutes with a minimum, and it fixes ⊤, the value an empty minimum starts from;
    * y + y = 2 · y for every extended real y.
  The float words the programs spell are read once, here.
-/
import Idealize.ShloMosaic.PureOps.Ideal
import Idealize.ShloMosaic.PureOps.Ideal.Laws

noncomputable section

namespace Cert.Nearest

open Idealize.ShloMosaic

/-! ## The float words -/

/-- The word of +∞ denotes the top element. -/
theorem ofBits_inf : Ideal.ofBits .f32 0x7F800000#32 = ⊤ := by
  simp [Ideal.ofBits, Ideal.ieee]

/-- The word of 2.0 denotes the number 2. -/
theorem ofBits_two : Ideal.ofBits .f32 0x40000000#32 = ((2 : ℝ) : EReal) := by
  simp [Ideal.ofBits, Ideal.ieee, -EReal.coe_mul]; norm_num

/-! ## Squares and sums of three squares -/

/-- A square is never negative, at the infinities too: (±∞)·(±∞) = +∞. -/
theorem mul_self_nonneg (d : EReal) : 0 ≤ d * d := by
  induction d using EReal.rec with
  | bot => simp
  | coe r => rw [← EReal.coe_mul]; exact EReal.coe_nonneg.mpr (_root_.mul_self_nonneg r)
  | top => simp

/-- The squared distance as it is accumulated coordinate by coordinate from zero. -/
def sq3 (a b : Fin 3 → EReal) : EReal :=
  ((0 + (a 0 - b 0) * (a 0 - b 0)) + (a 1 - b 1) * (a 1 - b 1)) + (a 2 - b 2) * (a 2 - b 2)

/-- It is zero plus the sum over the three coordinates (addition of extended reals is associative). -/
theorem sq3_eq_sum (a b : Fin 3 → EReal) : sq3 a b = 0 + ∑ k : Fin 3, (a k - b k) * (a k - b k) := by
  unfold sq3
  rw [Fin.sum_univ_three, add_assoc, add_assoc, add_assoc]

/-- It is never negative. -/
theorem sq3_nonneg (a b : Fin 3 → EReal) : 0 ≤ sq3 a b := by
  unfold sq3
  rw [zero_add]
  exact add_nonneg (add_nonneg (mul_self_nonneg _) (mul_self_nonneg _)) (mul_self_nonneg _)

/-! ## The square root and minima -/

/-- The square root is monotone on every extended real: below zero it is ⊥, on [0, ∞) the real root, ⊤ at ⊤. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have hrs : r ≤ s := EReal.coe_le_coe_iff.mp hxy
      rw [Ideal.sqrt_coe, Ideal.sqrt_coe]
      by_cases h1 : r < 0
      · rw [if_pos h1]; exact bot_le
      · rw [if_neg h1, if_neg (by linarith)]
        exact EReal.coe_le_coe_iff.mpr (Real.sqrt_le_sqrt hrs)

/-- So it commutes with a minimum of two, -/
theorem sqrt_min (x y : EReal) : Ideal.sqrt (min x y) = min (Ideal.sqrt x) (Ideal.sqrt y) :=
  sqrt_mono.map_min

/-- and with a minimum over a finite set started from ⊤, which it fixes. -/
theorem sqrt_fold_min {ι : Type*} (s : Finset ι) (f : ι → EReal) :
    Ideal.sqrt (s.fold min ⊤ f) = s.fold min ⊤ (fun i => Ideal.sqrt (f i)) := by
  have h := Finset.fold_hom (op := min) (op' := min) (s := s) (b := (⊤ : EReal)) (f := f) (m := Ideal.sqrt) sqrt_min
  rw [Ideal.sqrt_top] at h
  exact h.symm

/-- A minimum, from ⊤, of numbers none of which is negative is not negative; so clamping it at zero does nothing. -/
theorem max_fold_min_zero {ι : Type*} (s : Finset ι) (f : ι → EReal) (hf : ∀ i, 0 ≤ f i) :
    max (s.fold min ⊤ f) 0 = s.fold min ⊤ f :=
  max_eq_left ((Finset.le_fold_min 0).mpr ⟨le_top, fun i _ => hf i⟩)

/-- The root of the clamped minimum is the minimum of the roots. -/
theorem sqrt_max_fold_min {ι : Type*} (s : Finset ι) (f : ι → EReal) (hf : ∀ i, 0 ≤ f i) :
    Ideal.sqrt (max (s.fold min ⊤ f) 0) = s.fold min ⊤ (fun i => Ideal.sqrt (f i)) := by
  rw [max_fold_min_zero s f hf, sqrt_fold_min]

/-! ## Twice a number -/

/-- y + y = 2 · y on the extended reals (1 and 1 are not negative, so (1 + 1) · y distributes). -/
theorem add_self_eq_two_mul (y : EReal) : y + y = ((2 : ℝ) : EReal) * y := by
  have h := EReal.right_distrib_of_nonneg (a := 1) (b := 1) (c := y) zero_le_one zero_le_one
  rw [one_mul] at h
  rw [← h]
  congr 1
  rw [← EReal.coe_one, ← EReal.coe_add]
  norm_num

end Cert.Nearest

end
-- ==== Proof.LibMinOverAxis.lean ====
/-
  Minima along one axis, and a repeated column, read at an index.

  * A minimum taken along ONE axis of an array of extended reals is, at each index of the result, the minimum
    (started from the accumulator's or the initial value) over that axis's coordinates of the source, in any order:
    minimum is commutative and associative, so the set of source positions over a result index may be enumerated by
    the reduced coordinate.  Stated for a vector minimum-reduction at any shape, and for the host's reduction down the
    rows of an [m, n] matrix.
  * A column vector [a, 1] repeated along its unit axis to [a, b] reads, at (p, c), the column's entry p.
-/
import Idealize.ShloMosaic.PureOps.Ideal.Laws
import Idealize.ShloMosaic.Lib.ValueIdx
import Idealize.ShloMosaic.Lib.Pipeline.Value

noncomputable section

namespace Idealize.ShloMosaic.MinOverAxis

open Idealize.ShloMosaic Idealize.ShloMosaic.ValueIdx

variable {φ : FTy}

/-- A float minimum-reduction over one axis, read on the extended reals: the fold of `min` from the accumulator's
    value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum taken by the host down the rows of an [m, n] matrix, from an initial value, read at column t: the minimum
    over the m row coordinates. -/
theorem hostMin_rows_apply {mm nn : Nat} (x : FVec Ideal ⟨2, ![mm, nn]⟩ .f32) (init : FVec Ideal ⟨0, ![]⟩ .f32)
    (h' : (⟨2, ![mm, nn]⟩ : Shape).ReducesTo [0] (⟨1, ![nn]⟩ : Shape))
    (h : (⟨2, ![mm, nn]⟩ : Shape).Reduces [0] (⟨1, ![nn]⟩ : Shape)) (hu : 0 < (⟨0, ![]⟩ : Shape).numel) (t : Fin nn) :
    Host.reduce FloatOps.minimumf x init h' hu (ix1 t)
      = (Finset.univ : Finset (Fin mm)).fold min (init (Shape.Idx.first hu)) fun k => x (ix2 k t) := by
  rw [Host.reduce_eq_fold_single FloatOps.minimumf x _ h' h hu]
  have hf : (x ∘ h.lift (ix1 t)) = fun k : Fin mm => x (ix2 k t) :=
    funext fun k => congrArg x (funext fun c => Fin.ext (by fin_cases c <;> rfl))
  exact congrArg (fun f => Finset.fold min (init (Shape.Idx.first hu)) f (Finset.univ : Finset (Fin mm))) hf

/-- A column [a, 1] repeated to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MinOverAxis

end
-- ==== Proof.TileMin.lean ====
/-
  The body's arithmetic at one index.

  At a grid point the body holds a tile of 1024 points a_r (rows of a [1024, 3] block) and 1024 points b_l
  (columns of a [3, 1024] block, the transposed second input), and the running result xo over the 1024 columns.
  What it stores at column l is
      min ( xo_l ,  min over the 1024 rows r of  D(r, l) ),      D(r, l) = ((0 + d₀²) + d₁²) + d₂²,  d_k = a_r,k − b_k,l,
  the inner minimum started from +∞.  The three coordinate differences are formed on [1024, 1024] tiles from a
  column of the first block repeated along the lanes and a row of the second repeated along the sublanes.
-/
import proofs.«118219_j16741782520028_2_alg».proof.Proof.Gen.KernelIdeal.Skeleton
import proofs.«118219_j16741782520028_2_alg».proof.Proof.Distances
import proofs.«118219_j16741782520028_2_alg».proof.Proof.LibMinOverAxis
import Idealize.ShloMosaic.Lib.ValueIdx
import Idealize.ShloMosaic.Lib.ValueLayout
import Idealize.ShloMosaic.Lib.Pipeline.Value

noncomputable section

namespace Cert.KernelIdeal.TileMin

open Cert.KernelIdeal Cert.KernelIdeal.Gen Idealize.ShloMosaic Idealize.ShloMosaic.ValueIdx
open Idealize.ShloMosaic.MinOverAxis Cert.Nearest

/-- Coordinate `k`'s difference on the tile, at (r, l): column `k` of the first block at row r, minus row `k` of the
    second block at column l. -/
theorem diff_apply (x0 : FVec Ideal S1024x3 .f32) (x1 : FVec Ideal S3x1024 .f32) (o : Nat) (k : Fin 3) (hk : k.val = o)
    (hs0 : S1024x3.Slices ![0, o] S1024x1) (hs1 : S3x1024.Slices ![o, 0] S1x1024) (r l : Fin 1024) :
    subf (broadcastTo S1024x1024 (extractStridedSlice S1024x1 ![0, o] x0 hs0) broadcasts_S1024x1_S1024x1024)
        (broadcastTo S1024x1024 (extractStridedSlice S1x1024 ![o, 0] x1 hs1) broadcasts_S1x1024_S1024x1024) (ix2 r l)
      = x0 (ix2 r k) - x1 (ix2 k l) := by
  rw [subf_apply, broadcastTo_a1_ab_apply, broadcastTo_1b_ab_apply,
    slice2_axis1_apply o x0 hs0 r (0 : Fin 1) k (by rw [hk]; rfl),
    slice2_axis0_apply o x1 hs1 (0 : Fin 1) l k (by rw [hk]; rfl)]

/-- The sum of three squared differences accumulated from a zero tile, at (r, l), for any three difference tiles. -/
theorem sum3_apply (d0 d1 d2 : FVec Ideal S1024x1024 .f32) (a b : Fin 3 → EReal) (r l : Fin 1024)
    (h0 : d0 (ix2 r l) = a 0 - b 0) (h1 : d1 (ix2 r l) = a 1 - b 1) (h2 : d2 (ix2 r l) = a 2 - b 2) :
    addf (addf (addf (broadcast S1024x1024 (Scalar.ofBits (F := Ideal) .f32 0x00000000#32)) (mulf d0 d0)) (mulf d1 d1)) (mulf d2 d2) (ix2 r l)
      = sq3 a b := by
  unfold sq3
  rw [addf_apply, addf_apply, addf_apply, mulf_apply, mulf_apply, mulf_apply, broadcast_apply, h0, h1, h2]
  exact congrArg (fun z => ((z + _) + _) + _) Ideal.ofBits_zero_f32

/-- The running value against a minimum down the rows of ANY tile, at column `l`: the minimum down the rows started
    from +∞ is the minimum over the 1024 row coordinates. -/
theorem min_rows_apply (xo : FVec Ideal S1024 .f32) (src : FVec Ideal S1024x1024 .f32) (h1 : S1024.ShapeCasts S1024)
    (hφ : FKind.Formats .f32) (hacc : (0x7F800000#32 : BitVec 32) = 0x7F800000#32) (l : Fin 1024) :
    minimumf (shapeCast S1024 xo h1)
        (multiReduction .minimumf [0] S1024 src 0x7F800000#32 reduces_S1024x1024_S1024 hφ hacc) (ix1 l)
      = min (xo (ix1 l)) ((Finset.univ : Finset (Fin 1024)).fold min ⊤ fun r => src (ix2 r l)) := by
  rw [minimumf_apply, shapeCast_self]
  refine congrArg (min (xo (ix1 l))) ?_
  refine (multiReduction_minimumf_single src 0x7F800000#32 reduces_S1024x1024_S1024 hφ hacc (ix1 l)).trans ?_
  show (Finset.univ : Finset (Fin 1024)).fold min (Ideal.ofBits .f32 0x7F800000#32) _ = _
  rw [ofBits_inf]
  refine Finset.fold_congr fun r _ => ?_
  exact congrArg src (funext fun a => Fin.ext (by match a with | ⟨0, _⟩ => rfl | ⟨1, _⟩ => rfl))

/-- The stored value at column `l`: the running value there against the tile's minimum of squared distances. -/
theorem pay2_apply (x0 : Vec Ideal S1024x3 .f32) (x1 : Vec Ideal S3x1024 .f32) (xo : Vec Ideal S1024 .f32) (l : Fin 1024) :
    k0_pay2 (F := Ideal) x0 x1 xo (ix1 l)
      = min (xo (ix1 l)) ((Finset.univ : Finset (Fin 1024)).fold min ⊤
          fun r => sq3 (fun k => x0 (ix2 r k)) (fun k => x1 (ix2 k l))) := by
  unfold k0_pay2
  refine (min_rows_apply xo _ _ _ _ l).trans ?_
  refine congrArg (min (xo (ix1 l))) (Finset.fold_congr fun r _ => ?_)
  rw [shapeCast_self]
  exact sum3_apply _ _ _ (fun k => x0 (ix2 r k)) (fun k => x1 (ix2 k l)) r l
    (diff_apply x0 x1 0 0 rfl _ _ r l) (diff_apply x0 x1 1 1 rfl _ _ r l) (diff_apply x0 x1 2 2 rfl _ _ r l)

/-- The value the first point of a column's run stores first, +∞ in every column. -/
theorem pay1_apply (l : Fin 1024) : k0_pay1 (F := Ideal) (ix1 l) = ⊤ := by
  unfold k0_pay1
  exact ofBits_inf

end Cert.KernelIdeal.TileMin

end
-- ==== Proof.Spec.lean ====
/-
  The quantity both programs compute, over the two inputs as [8192, 3] arrays of extended reals.

    dist2 a b p q    the squared distance  Σ_k (a_p,k − b_q,k)²  between row p of the first input and row q of the second,
                     accumulated coordinate by coordinate from zero;
    nearest2 a b q   its minimum over the 8192 rows p of the first input, started from +∞.

  A number lies below `nearest2 a b q` exactly when it lies below every `dist2 a b p q`: the minimum is carried by this
  universal property, which is indifferent to how the rows are grouped into tiles or in which order the tiles arrive.
-/
import proofs.«118219_j16741782520028_2_alg».proof.Proof.Distances
import Idealize.ShloMosaic.Lib.ValueIdx

noncomputable section

namespace Cert.Nearest

open Idealize.ShloMosaic Idealize.ShloMosaic.ValueIdx

/-- 8192 points in three coordinates. -/
abbrev Pts : Type := (⟨2, ![8192, 3]⟩ : Shape).Idx → EReal

/-- The squared distance between row `p` of `a` and row `q` of `b`. -/
def dist2 (a b : Pts) (p q : Fin 8192) : EReal := sq3 (fun k => a (ix2 p k)) (fun k => b (ix2 q k))

theorem dist2_nonneg (a b : Pts) (p q : Fin 8192) : 0 ≤ dist2 a b p q := sq3_nonneg _ _

/-- The least squared distance from row `q` of `b` to a row of `a`. -/
def nearest2 (a b : Pts) (q : Fin 8192) : EReal :=
  (Finset.univ : Finset (Fin 8192)).fold min ⊤ fun p => dist2 a b p q

/-- Its universal property. -/
theorem le_nearest2_iff (a b : Pts) (q : Fin 8192) (z : EReal) : z ≤ nearest2 a b q ↔ ∀ p : Fin 8192, z ≤ dist2 a b p q := by
  unfold nearest2
  rw [Finset.le_fold_min]
  exact ⟨fun h p => h.2 p (Finset.mem_univ p), fun h => ⟨le_top, fun p _ => h p⟩⟩

/-- The root of the least squared distance, clamped below at zero first, is the least of the roots. -/
theorem sqrt_max_nearest2 (a b : Pts) (q : Fin 8192) :
    Ideal.sqrt (max (nearest2 a b q) 0)
      = (Finset.univ : Finset (Fin 8192)).fold min ⊤ fun p => Ideal.sqrt (dist2 a b p q) :=
  sqrt_max_fold_min _ _ fun p => dist2_nonneg a b p q

end Cert.Nearest

end
-- ==== Proof.Running.lean ====
/-
  The region's result array: at every index q it ends at the least squared distance from row q of the second input
  to a row of the first.

  Column tile j of the result is built over the eight grid points 8j, 8j + 1, …, 8j + 7, which bring the row tiles
  0, …, 7 of the first input in turn, and is written back after the last.  After the point t = 8j + i the running
  buffer holds, at column l, the minimum of the squared distances from row 1024·j + l of the second input to the rows
  0 … 1024·(i + 1) − 1 of the first.  This is stated through the minimum's universal property (a number is below the
  buffer's entry exactly when it is below each of those distances) and proved by induction on the point: the first point
  of a run starts from +∞, each later one takes the minimum of what the point before left and its own tile's minimum.
  At i = 7 every row has been met, so the entry is the least squared distance; the eight write-backs tile the array.
-/
import proofs.«118219_j16741782520028_2_alg».proof.Proof.Cases
import proofs.«118219_j16741782520028_2_alg».proof.Proof.Blocks
import proofs.«118219_j16741782520028_2_alg».proof.Proof.TileMin
import proofs.«118219_j16741782520028_2_alg».proof.Proof.Spec

noncomputable section

namespace Cert.KernelIdeal.Running

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Cases Cert.KernelIdeal.Blocks Cert.KernelIdeal.TileMin Cert.Nearest

variable (m : (ℓ : Loc nD τ sig) → Buf (Elt Ideal) ℓ)

/-- The two inputs as the run finds them. -/
abbrev ptsA (c : Dev nD) : Pts := m ((c : Thread nD τ).loc main_arg0)
abbrev ptsB (c : Dev nD) : Pts := m ((c : Thread nD τ).loc main_arg1)

/-- What one point stores at column l, by the universal property: below the stored value is below the running value and
    below the squared distances from row q = 1024·(t / 8) + l of the second input to the point's 1024 rows of the first. -/
theorem le_point_iff (c : Dev nD) (t : Fin cfg0.N) (l : Fin 1024) (q : Fin 8192) (hq : q.val = 1024 * (t.val / 8) + l.val)
    (xo : Vec Ideal S1024 .f32) (z : EReal) :
    z ≤ k0_pay2 (F := Ideal) (iblk m c 0 t) (iblk m c 1 t) xo (ix1 l)
      ↔ z ≤ xo (ix1 l) ∧ ∀ p : Fin 8192, 1024 * (t.val % 8) ≤ p.val → p.val < 1024 * (t.val % 8 + 1) →
          z ≤ dist2 (ptsA m c) (ptsB m c) p q := by
  rw [pay2_apply (iblk m c 0 t) (iblk m c 1 t) xo l, le_min_iff, Finset.le_fold_min]
  refine and_congr_right fun _ => ?_
  have key : ∀ (r : Fin 1024) (p : Fin 8192), p.val = 1024 * (t.val % 8) + r.val →
      sq3 (fun k => (iblk m c 0 t : Vec Ideal S1024x3 .f32) (ix2 r k)) (fun k => (iblk m c 1 t : Vec Ideal S3x1024 .f32) (ix2 k l))
        = dist2 (ptsA m c) (ptsB m c) p q := fun r p hp => by
    unfold dist2
    exact congrArg₂ sq3 (funext fun k => iblk0_apply m c t r k p hp) (funext fun k => iblk1_apply m c t k l q hq)
  constructor
  · rintro ⟨-, h⟩ p hp1 hp2
    have hr : p.val - 1024 * (t.val % 8) < 1024 := by omega
    rw [← key ⟨p.val - 1024 * (t.val % 8), hr⟩ p (by show p.val = _ + (p.val - _); omega)]
    exact h _ (Finset.mem_univ _)
  · intro h
    refine ⟨le_top, fun r _ => ?_⟩
    have ht : t.val % 8 < 8 := Nat.mod_lt _ (by norm_num)
    have hr := r.isLt
    rw [key r ⟨1024 * (t.val % 8) + r.val, by omega⟩ rfl]
    exact h _ (by show 1024 * _ ≤ 1024 * _ + _; omega) (by show _ + _ < _; omega)

/-- The first point of a column tile's run: the rows met are the first 1024. -/
theorem step_first (c : Dev nD) (t : Fin cfg0.N) (h0 : t.val % 8 = 0) (l : Fin 1024) (q : Fin 8192)
    (hq : q.val = 1024 * (t.val / 8) + l.val) (z : EReal) :
    z ≤ outsAt0 m c t.val t.isLt (ix1 l)
      ↔ ∀ p : Fin 8192, p.val < 1024 * (t.val % 8 + 1) → z ≤ dist2 (ptsA m c) (ptsB m c) p q := by
  rw [outsAt_first m c t h0, le_point_iff m c t l q hq, pay1_apply]
  exact ⟨fun h p hp => h.2 p (by omega) hp, fun h => ⟨le_top, fun p _ hp => h p hp⟩⟩

/-- A later point: the rows met so far and the point's own 1024. -/
theorem step_later (c : Dev nD) (t : Fin cfg0.N) (h0 : ¬t.val % 8 = 0) (l : Fin 1024) (q : Fin 8192)
    (hq : q.val = 1024 * (t.val / 8) + l.val) (z : EReal)
    (ih : ∀ z' : EReal, z' ≤ outsAt0 m c (t.val - 1) (Nat.lt_of_le_of_lt (Nat.sub_le _ _) t.isLt) (ix1 l)
      ↔ ∀ p : Fin 8192, p.val < 1024 * ((t.val - 1) % 8 + 1) → z' ≤ dist2 (ptsA m c) (ptsB m c) p q) :
    z ≤ outsAt0 m c t.val t.isLt (ix1 l)
      ↔ ∀ p : Fin 8192, p.val < 1024 * (t.val % 8 + 1) → z ≤ dist2 (ptsA m c) (ptsB m c) p q := by
  rw [outsAt_later m c t h0, le_point_iff m c t l q hq, ih z]
  have e : (t.val - 1) % 8 + 1 = t.val % 8 := by omega
  rw [e]
  constructor
  · rintro ⟨h1, h2⟩ p hp
    by_cases hlt : p.val < 1024 * (t.val % 8)
    · exact h1 p hlt
    · exact h2 p (by omega) hp
  · intro h
    exact ⟨fun p hp => h p (by omega), fun p _ hp => h p hp⟩

/-- THE INVARIANT, by induction on the point. -/
theorem running (c : Dev nD) : ∀ (n : ℕ) (h : n < cfg0.N) (l : Fin 1024) (q : Fin 8192), q.val = 1024 * (n / 8) + l.val →
    ∀ z : EReal, (z ≤ outsAt0 m c n h (ix1 l)
      ↔ ∀ p : Fin 8192, p.val < 1024 * (n % 8 + 1) → z ≤ dist2 (ptsA m c) (ptsB m c) p q)
  | 0, h, l, q, hq, z => step_first m c ⟨0, h⟩ rfl l q hq z
  | n + 1, h, l, q, hq, z => by
    by_cases h0 : (n + 1) % 8 = 0
    · exact step_first m c ⟨n + 1, h⟩ h0 l q hq z
    · exact step_later m c ⟨n + 1, h⟩ h0 l q hq z fun z' =>
        running c n (Nat.lt_of_succ_lt h) l q (by rw [hq]; omega) z'

/-! ## The result array -/

/-- The least squared distances, as contents of the region's result array. -/
def result (c : Dev nD) : Buf (Elt Ideal) ((c : Thread nD τ).loc main_v1) :=
  fun i => nearest2 (ptsA m c) (ptsB m c) ⟨(i 0).val, (i 0).isLt⟩

/-- What a write-back point writes is its tile of the least squared distances: it is the last point of its run. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  show (cfg0.win 2).cut (grid0.coords t) ((dats m 0 c).after 2 t) = _
  rw [after0_2]
  funext y
  rw [View.read_apply]
  have hl : (y 0).val < 1024 := (y 0).isLt
  have hy : (y : S1024.Idx) = ix1 ⟨(y 0).val, hl⟩ := funext fun d => Fin.ext (by match d with | ⟨0, _⟩ => rfl)
  have hq : ((((cfg0.win 2).blk t).view.emb y) 0).val = 1024 * (t.val / 8) + (y 0).val := by
    show win0_2.index t (0 : Fin 1) * 1024 + 1 * (y 0).val = _
    rw [idx2 t]; omega
  refine (congrArg (outsAt0 m c t.val t.isLt) hy).trans ?_
  show _ = nearest2 (ptsA m c) (ptsB m c) ⟨_, _⟩
  refine eq_of_forall_le_iff fun z => ?_
  rw [running m c t.val t.isLt ⟨(y 0).val, hl⟩ _ hq z, le_nearest2_iff, h7]
  exact ⟨fun h p => h p p.isLt, fun h p _ => h p⟩

/-- An index of the result is in point t's tile iff its coordinate is in the tile's range. -/
theorem mem_blk (t : Fin cfg0.N) (i : S8192.Idx) :
    i ∈ ((cfg0.win 2).blk t).view.set
      ↔ ∀ a : Fin 1, win0_2.index t a * S1024.size a ≤ (i a).val ∧ (i a).val < win0_2.index t a * S1024.size a + S1024.size a := by
  show i ∈ ((View.whole main_v1).slice (win0_2.rect t)).set ↔ _
  rw [View.set_slice_whole, Rect.mem_set_unit]
  exact Iff.rfl

/-- Every index is in the tile of the write-back point that ends its column tile's run. -/
theorem covered (i : S8192.Idx) :
    ∃ t : Fin cfg0.N, (cfg0.win 2).flush t = true ∧ i ∈ ((cfg0.win 2).blk t).view.set := by
  have hi : (i 0).val < 8192 := (i 0).isLt
  have hN : cfg0.N = 64 := N_0
  refine ⟨⟨8 * ((i 0).val / 1024) + 7, by rw [hN]; omega⟩, (flush0_2 _).mpr (by show (8 * _ + 7) % 8 = 7; omega), ?_⟩
  rw [mem_blk]
  intro a
  match a with
  | ⟨0, _⟩ =>
    show win0_2.index _ (0 : Fin 1) * 1024 ≤ (i 0).val ∧ (i 0).val < win0_2.index _ (0 : Fin 1) * 1024 + 1024
    rw [idx2]
    show (8 * ((i 0).val / 1024) + 7) / 8 * 1024 ≤ (i 0).val ∧ (i 0).val < (8 * ((i 0).val / 1024) + 7) / 8 * 1024 + 1024
    omega

/-- So the region's result array ends at the least squared distances. -/
theorem final (c : Dev nD) : (dats m 0 c).arrAt 2 cfg0.N = result m c :=
  (dats m 0 c).arrAt_eq_of_cover 2 (result m c) (flushed_eq m c) covered

end Cert.KernelIdeal.Running

end
-- ==== Proof.Mean.lean ====
/-
  From the least squared distances to the result: clamp at zero, take the square root, average over the 8192 rows of
  the second input, double.

  The averaging is the host's: a sum from zero divided by 8192.  It is applied here to ONE vector on both sides, so it
  is never opened; all that is used of it is that adding a mean to itself is twice the mean.
-/
import proofs.«118219_j16741782520028_2_alg».proof.Proof.Spec
import Idealize.ShloMosaic.PureOps.Ideal.Laws

noncomputable section

namespace Cert.Nearest

open Idealize.ShloMosaic Idealize.ShloMosaic.ValueIdx

abbrev Vec8192 : Shape := ⟨1, ![8192]⟩
abbrev Scal : Shape := ⟨0, ![]⟩

/-- The least squared distances as a vector over the rows of the second input. -/
def nearest2Vec (a b : Pts) : FVec Ideal Vec8192 .f32 := fun i => nearest2 a b ⟨(i 0).val, (i 0).isLt⟩

/-- Clamp below at zero, then the square root, entry by entry. -/
def clampSqrt (v : FVec Ideal Vec8192 .f32) (hb : Scal.BroadcastsInDim Vec8192 (![] : Fin 0 → Fin Vec8192.rank)) :
    FVec Ideal Vec8192 .f32 :=
  Host.sqrt (maximumf v (broadcastInDim Vec8192 ![] hb (constant (F := Ideal) Scal .f32 0x00000000#32)))

theorem clampSqrt_apply (v : FVec Ideal Vec8192 .f32) (hb : Scal.BroadcastsInDim Vec8192 (![] : Fin 0 → Fin Vec8192.rank))
    (i : Vec8192.Idx) : clampSqrt v hb i = Ideal.sqrt (max (v i) 0) := by
  show Ideal.sqrt (max (v i) (Ideal.ofBits .f32 0x00000000#32)) = _
  rw [Ideal.ofBits_zero_f32]

/-- The mean of 8192 numbers as the host takes it: their sum from zero, divided by 8192. -/
def mean (d : FVec Ideal Vec8192 .f32) (hr : Vec8192.ReducesTo [0] Scal) (h0 : 0 < Scal.numel) : FVec Ideal Scal .f32 :=
  Host.divf (Host.reduceAdd d (constant (F := Ideal) Scal .f32 0x00000000#32) hr h0)
    (constant (F := Ideal) Scal .f32 0x46000000#32)

/-- Twice the mean distance to the nearest point. -/
def loss (a b : Pts) (hb : Scal.BroadcastsInDim Vec8192 (![] : Fin 0 → Fin Vec8192.rank))
    (hr : Vec8192.ReducesTo [0] Scal) (h0 : 0 < Scal.numel) : FVec Ideal Scal .f32 :=
  mulf (constant (F := Ideal) Scal .f32 0x40000000#32) (mean (clampSqrt (nearest2Vec a b) hb) hr h0)

/-- A mean added to itself is twice the mean. -/
theorem mean_add_mean (d : FVec Ideal Vec8192 .f32) (hr : Vec8192.ReducesTo [0] Scal) (h0 : 0 < Scal.numel) :
    addf (mean d hr h0) (mean d hr h0) = mulf (constant (F := Ideal) Scal .f32 0x40000000#32) (mean d hr h0) := by
  funext i
  show mean d hr h0 i + mean d hr h0 i = Ideal.ofBits .f32 0x40000000#32 * mean d hr h0 i
  rw [ofBits_two]
  exact add_self_eq_two_mul _

end Cert.Nearest

end
-- ==== Proof.Tail.lean ====
/-
  The kernel's run, with its result named.

  After the region the host clamps the least squared distances at zero, takes square roots, averages and doubles;
  the region's result array is the vector of least squared distances, so the result is twice the mean distance to the
  nearest point.  The two inputs end as they began.
-/
import proofs.«118219_j16741782520028_2_alg».proof.Proof.Running
import proofs.«118219_j16741782520028_2_alg».proof.Proof.Mean
import Idealize.ShloMosaic.Lib.StableHlo.Run
import Idealize.ShloMosaic.Lib.Tactic

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Running Cert.Nearest

variable (m : (ℓ : Loc nD τ sig) → Buf (Elt Ideal) ℓ) (ρ : Dev nD → PrngReg)

/-- The result array is the vector of least squared distances. -/
theorem result_eq (c : Dev nD) : result m c = nearest2Vec (ptsA m c) (ptsB m c) := rfl

/-- What the host operations after the region leave in the result: the doubled mean of the clamped roots. -/
theorem tail_eq (c : Dev nD) :
    Pipeline.afterTail₀ cfgs (dats m) 0 (V0 m) [hostOps1] c main_v7
      = loss (ptsA m c) (ptsB m c) bcast_S_S8192 reducesTo_S8192_S_d0 h_S_ := by
  have e : Pipeline.withArrays spec0 c (V0 m c) (fun w => (dats m 0 c).arrAt w cfg0.N) (Proc.devRef .tc main_v1)
      = nearest2Vec (ptsA m c) (ptsB m c) :=
    (Pipeline.withArrays_arr spec0 launch0.win.arr_inj c _ _ 2).trans (final m c)
  unfold Pipeline.afterTail₀
  show StableHlo.after hostOps1 _ (Proc.devRef .tc main_v7) = _
  after_results
  rw [e]
  rfl

/-- The run: the result at twice the mean distance to the nearest point, the inputs unchanged. -/
theorem run : θ_run defs (onTc (τ := τ) (main (F := Ideal))) ⟨m, fun _ => 0, ρ⟩ fun r => ∀ c : Dev nD,
      r.2.mem ((c.tc : Thread nD τ).loc main_v7) = loss (ptsA m c) (ptsB m c) bcast_S_S8192 reducesTo_S8192_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Tail

end
-- ==== Proof.Reference.lean ====
/-
  The reference's result is the same doubled mean.

  The reference forms every squared distance D(p, q) = 0 + Σ_k (a_p,k − b_q,k)² on an [8192, 8192, 3] array, takes the
  square root of each, then the minimum over p from +∞, the mean over q, and adds the mean to itself (it computes the
  same vector of minima twice).  The minimum of the roots is the root of the clamped minimum of the squares, and a mean
  added to itself is twice the mean.
-/
import proofs.«118219_j16741782520028_2_alg».proof.Proof.Gen.ReferenceIdeal.Read
import proofs.«118219_j16741782520028_2_alg».proof.Proof.Mean
import proofs.«118219_j16741782520028_2_alg».proof.Proof.LibMinOverAxis
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Idealize.ShloMosaic.MinOverAxis Cert.Nearest

/-- The sum over the three coordinates at (p, q) is the squared distance between row p and row q. -/
theorem v6_apply (x0 x1 : Pts) (p q : Fin 8192) : val_main_v6 (F := Ideal) x0 x1 (ix2 p q) = dist2 x0 x1 p q := by
  rw [val_main_v6_apply]
  unfold dist2
  rw [sq3_eq_sum]
  refine congrArg₂ (· + ·) Ideal.ofBits_zero_f32 (Finset.sum_congr rfl fun k _ => ?_)
  rw [val_main_v5_apply, val_main_v4_apply, val_main_v2_apply, val_main_v3_apply, val_main_v0_apply, val_main_v1_apply]
  have e0 : idx_main_v0 (idx_main_v2 (idx_main_v6 (ix2 p q) k)) = ix2 p k :=
    funext fun a => Fin.ext (by match a with | ⟨0, _⟩ => rfl | ⟨1, _⟩ => rfl)
  have e1 : idx_main_v1 (idx_main_v3 (idx_main_v6 (ix2 p q) k)) = ix2 q k :=
    funext fun a => Fin.ext (by match a with | ⟨0, _⟩ => rfl | ⟨1, _⟩ => rfl)
  rw [e0, e1]
  rfl

/-- The minimum over p, from +∞, of the roots, at q. -/
theorem v8_apply (x0 x1 : Pts) (q : Fin 8192) :
    val_main_v8 (F := Ideal) x0 x1 (ix1 q)
      = (Finset.univ : Finset (Fin 8192)).fold min ⊤ fun p => Ideal.sqrt (dist2 x0 x1 p q) := by
  unfold val_main_v8
  have hred : S8192x8192.Reduces [0] S8192 := by decide
  refine (hostMin_rows_apply (val_main_v7 (F := Ideal) x0 x1) (val_main_cst_0 (F := Ideal))
    reducesTo_S8192x8192_S8192_d0 hred h_S_ q).trans ?_
  show (Finset.univ : Finset (Fin 8192)).fold min (Ideal.ofBits .f32 0x7F800000#32) _ = _
  rw [ofBits_inf]
  refine Finset.fold_congr fun p _ => ?_
  show Ideal.sqrt (val_main_v6 (F := Ideal) x0 x1 (ix2 p q)) = _
  rw [v6_apply]

/-- So the vector of minima is the clamped root of the least squared distances. -/
theorem v8_eq (x0 x1 : Pts) (hb : Scal.BroadcastsInDim Vec8192 (![] : Fin 0 → Fin Vec8192.rank)) :
    val_main_v8 (F := Ideal) x0 x1 = clampSqrt (nearest2Vec x0 x1) hb := by
  funext j
  obtain ⟨q, rfl⟩ : ∃ q : Fin 8192, j = ix1 q := ⟨j 0, eq_ix1 j⟩
  rw [v8_apply, clampSqrt_apply]
  exact (sqrt_max_nearest2 x0 x1 q).symm

/-- The reference's result is twice the mean distance to the nearest point. -/
theorem result_eq (x0 x1 : Pts) (hb : Scal.BroadcastsInDim Vec8192 (![] : Fin 0 → Fin Vec8192.rank))
    (hr : Vec8192.ReducesTo [0] Scal) (h0 : 0 < Scal.numel) :
    val_main_v14 (F := Ideal) x0 x1 = loss x0 x1 hb hr h0 := by
  have e9 : val_main_v9 (F := Ideal) x0 x1 = val_main_v8 (F := Ideal) x0 x1 := rfl
  unfold loss
  rw [← mean_add_mean]
  unfold val_main_v14 val_main_v11 val_main_v13 val_main_v10 val_main_v12
  rw [e9, v8_eq x0 x1 hb]
  rfl

end Cert.ReferenceIdeal.RefValue

end
-- ==== Proof.lean ====
/-
  Twice the mean, over the 8192 points b_q of the second input, of the distance from b_q to its nearest point a_p of
  the first input:   2 · mean_q  sqrt ( min_p  Σ_k (a_p,k − b_q,k)² ).

  One program walks an 8 × 8 grid of 1024 × 1024 tiles of squared distances, keeping for each column tile a running
  minimum over the row tiles (started from +∞, written back after the last row tile), and afterwards clamps the minima
  at zero, takes their square roots, averages and doubles.  The other forms every distance  sqrt (0 + Σ_k (a_p,k − b_q,k)²),
  takes the minimum over p from +∞, averages over q, and adds the average to itself.

  On the extended reals the two are one number, for every input:
    * the tiled running minimum is the minimum over all rows (a minimum is determined by which numbers lie below it,
      and that does not depend on how the rows are grouped or ordered);
    * a square is never negative, so the minimum of the squared distances is not negative and clamping it changes nothing;
    * the square root is monotone and fixes +∞, so the root of the minimum is the minimum of the roots;
    * an average added to itself is twice the average.
  The programs' own side conditions and their runs (termination, no fault, inputs unchanged) are the generated modules';
  the reference's run is read one operation at a time from its generated reading.
-/
import proofs.«118219_j16741782520028_2_alg».proof.Defs
import proofs.«118219_j16741782520028_2_alg».proof.Proof.Gen.Kernel
import proofs.«118219_j16741782520028_2_alg».proof.Proof.Gen.Kernel.Skeleton
import proofs.«118219_j16741782520028_2_alg».proof.Proof.Gen.Kernel.Launch
import proofs.«118219_j16741782520028_2_alg».proof.Proof.Gen.Kernel.Points
import proofs.«118219_j16741782520028_2_alg».proof.Proof.Gen.Kernel.Frame
import proofs.«118219_j16741782520028_2_alg».proof.Proof.Gen.KernelIdeal
import proofs.«118219_j16741782520028_2_alg».proof.Proof.Gen.KernelIdeal.Skeleton
import proofs.«118219_j16741782520028_2_alg».proof.Proof.Gen.KernelIdeal.Launch
import proofs.«118219_j16741782520028_2_alg».proof.Proof.Gen.KernelIdeal.Points
import proofs.«118219_j16741782520028_2_alg».proof.Proof.Gen.KernelIdeal.Frame
import proofs.«118219_j16741782520028_2_alg».proof.Proof.Gen.ReferenceIdeal
import proofs.«118219_j16741782520028_2_alg».proof.Proof.Gen.ReferenceIdeal.Run
import proofs.«118219_j16741782520028_2_alg».proof.Proof.Gen.ReferenceIdeal.Read
import proofs.«118219_j16741782520028_2_alg».proof.Proof.Gen.Pre_finite_inputs
import proofs.«118219_j16741782520028_2_alg».proof.Proof.Tail
import proofs.«118219_j16741782520028_2_alg».proof.Proof.Reference
import Idealize.ShloMosaic.Adequacy
import Idealize.ShloMosaic.Init

noncomputable section

namespace Cert.Proof

open Idealize.ShloMosaic Idealize.SL.Sem Cert.Nearest

/-- The word-level program runs and leaves its inputs unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the word-level program and its reading over the extended reals. -/
theorem preserves : Cert.preserves_Kernel_KernelIdeal := trivial

/-- From inputs that agree, both programs end at twice the mean distance to the nearest point. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v14_eq _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
